-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : FVec F S65536x1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S65536x1000 .f32 := Host.absf main_arg1
  let main_cst_0 : FVec F S_ .f32 := constant S_ .f32 0x7F800000#32
  let main_v5 : FVec F S65536x1000 .f32 := broadcastInDim S65536x1000 ![] bcast_S_S65536x1000 main_cst_0
  let main_v6 : IVec S65536x1000 1 := cmpf .olt main_v4 main_v5
  let main_c_1 : IVec S_ 1 := constantI S_ 1 1#1
  let main_v7 : IVec S_ 1 := (fun x v => Host.reduce IntOp.andi x v reducesTo_S65536x1000_S_d0_1 h_S_) main_v6 main_c_1
  let main_v8 : IVec S_ 1 := andi main_v3 main_v7
  main_v8
-- ==== Kernel.lean ====
abbrev S65536x1000 : Shape := ⟨2, ![65536, 1000]⟩
abbrev S1x1 : Shape := ⟨2, ![1, 1]⟩
abbrev S512x1000 : Shape := ⟨2, ![512, 1000]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S1x1, .f32⟩
  | .hbm, ⟨3, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v43 : BitVec 1 := Scalar.cmpi .eq arg0 c127_i32
  let v44 : BitVec 32 := Scalar.extui v43
  let c0_i32_20 : BitVec 32 := 0#32
  let v45 : BitVec 1 := Scalar.cmpi .ne v44 c0_i32_20
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  natLt_1_32 : 1 < 32
  reduces_S512x1_S1 : S512x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S65536x1000.size a
  hwx0_0 : ∀ i : grid0.Coords, EltTy.bits .f32 = 32 ∨ (Rect.block (s := S65536x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S65536x1000.size a
  hwx0_1 : ∀ i : grid0.Coords, EltTy.bits .f32 = 32 ∨ (Rect.block (s := S65536x1000) S512x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x1000 : Shape := ⟨2, ![65536, 1000]⟩
abbrev S_ : Shape := ⟨0, ![]⟩
abbrev S65536 : Shape := ⟨1, ![65536]⟩
abbrev S65536x1 : Shape := ⟨2, ![65536, 1]⟩

abbrev nBuf : Space → Nat
  | .hbm => 39
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S_, .f32⟩
  | .hbm, ⟨3, _⟩ => ⟨S65536, .f32⟩
  | .hbm, ⟨4, _⟩ => ⟨S_, .f32⟩
  | .hbm, ⟨5, _⟩ => ⟨S65536, .f32⟩
  | .hbm, ⟨6, _⟩ => ⟨S65536, .f32⟩
  | .hbm, ⟨7, _⟩ => ⟨S65536x1, .f32⟩
  | .hbm, ⟨8, _⟩ => ⟨S65536x1000, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S65536x1000, .f32⟩
  | .hbm, ⟨15, _⟩ => ⟨S65536x1000, .f32⟩
  | .hbm, ⟨16, _⟩ => ⟨S65536x1000, .f32⟩
  | .hbm, ⟨17, _⟩ => ⟨S_, .f32⟩
  | .hbm, ⟨18, _⟩ => ⟨S65536, .f32⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S65536, .f32⟩
  | .hbm, ⟨23, _⟩ => ⟨S65536, .f32⟩
  | .hbm, ⟨24, _⟩ => ⟨S_, .f32⟩
  | .hbm, ⟨25, _⟩ => ⟨S65536, .f32⟩
  | .hbm, ⟨26, _⟩ => ⟨S_, .f32⟩
  | .hbm, ⟨27, _⟩ => ⟨S65536, .f32⟩
  | .hbm, ⟨28, _⟩ => ⟨S65536, .i1⟩
  | .hbm, ⟨29, _⟩ => ⟨S65536, .f32⟩
  | .hbm, ⟨30, _⟩ => ⟨S_, .f32⟩
  | .hbm, ⟨31, _⟩ => ⟨S_, .f32⟩
  | .hbm, ⟨32, _⟩ => ⟨S65536, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  reducesTo_S65536_S_d0 : S65536.ReducesTo [0] S_

variable [Facts₀]

class Facts : Prop extends Facts₀ where

variable [Facts]
-- ==== Proof.Spec.lean ====
/-
  The specification. Both programs compute, from logits X and labels Y of shape [65536, 1000], the masked
  cross-entropy of a softmax:
      row r:   m_r   = max_k X[r,k]                         (folded from -∞)
               e_rk  = exp (X[r,k] - m_r)
               s_r   = Σ_k Y[r,k] · (e_rk / Σ_k' e_rk')     (the mass the row's candidate labels receive)
               b_r   = [ Σ_k Y[r,k] ≤ 999 ]                 (the row counts unless every label is a candidate)
               l_r   = -(log (s_r + ε)) · b_r
      total = Σ_r l_r,   count = Σ_r b_r,   result = if count > 0 then total / count else total
  over the extended reals. The reference sums the 65536 rows at once; the kernel sums them 512 at a time into two
  running accumulators. `upTo` is the running sum after each block of 512 rows, and the three lemmas about it are the
  only algebra that joins the two sides: a sum over the first 512·(n+2) rows is the sum over the first 512·(n+1) plus
  the next 512, which needs only that + is associative and commutative — no finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of the two argument arrays. -/
abbrev SArr : Shape := ⟨2, ![65536, 1000]⟩

/-- Row `r` of an array, as a function of the class index. -/
def row (X : SArr.Idx → EReal) (r : Fin 65536) : Fin 1000 → EReal := fun k => X (ix2 r k)

/-- The largest entry of a row: the fold of `max` from -∞ (the pattern 0xFF800000) over the row. -/
def rowMax (x : Fin 1000 → EReal) : EReal :=
  (Finset.univ : Finset (Fin 1000)).fold max (Ideal.ofBits .f32 0xFF800000#32) x

/-- `exp (x_k - max x)`: the softmax's numerator. -/
def rowExp (x : Fin 1000 → EReal) (k : Fin 1000) : EReal := Ideal.exp (x k - rowMax x)

/-- `Σ_k y_k · softmax(x)_k`: the probability mass the row's candidate labels receive. -/
def rowMass (x y : Fin 1000 → EReal) : EReal :=
  ∑ k : Fin 1000, y k * Ideal.div (rowExp x k) (∑ k' : Fin 1000, rowExp x k')

/-- Whether the row counts: `Σ_k y_k ≤ 999` (the pattern 0x4479C000), as a one-bit word. -/
def rowBit (y : Fin 1000 → EReal) : BitVec 1 :=
  Ideal.cmp .ole (∑ k : Fin 1000, y k) (Ideal.ofBits .f32 0x4479C000#32)

/-- The same as a number, 0 or 1. -/
def rowMask (y : Fin 1000 → EReal) : EReal := (((rowBit y).toNat : ℝ) : EReal)

/-- The row's term of the total: `-(log (mass + ε))` (ε the pattern 0x3727C5AC) times the row's mask. -/
def rowLoss (x y : Fin 1000 → EReal) : EReal :=
  -(Ideal.log (rowMass x y + Ideal.ofBits .f32 0x3727C5AC#32)) * rowMask y

/-- The per-row terms of the two sums, as functions of the row number. -/
def lossAt (X Y : SArr.Idx → EReal) (r : Fin 65536) : EReal := rowLoss (row X r) (row Y r)
def maskAt (Y : SArr.Idx → EReal) (r : Fin 65536) : EReal := rowMask (row Y r)

/-- `if count > 0 then total / count else total`. -/
def finish (T C : EReal) : EReal :=
  Scalar.select (Ideal.cmp .ogt C (Ideal.ofBits .f32 0x00000000#32)) (Ideal.div T C) T

/-- The result: the mean of the counted rows' losses (their sum, if no row counts). -/
def result (X Y : SArr.Idx → EReal) : EReal :=
  finish (∑ r : Fin 65536, lossAt X Y r) (∑ r : Fin 65536, maskAt Y r)

/-! ## Running sums over blocks of 512 rows -/

/-- A per-row quantity as a function of every natural number (0 past the last row), so that a sum over an initial
    stretch of rows is a sum over a `Finset.range`. -/
def ext (f : Fin 65536 → EReal) (r : ℕ) : EReal := if h : r < 65536 then f ⟨r, h⟩ else 0

/-- The sum over the first `512·(n+1)` rows: what an accumulator holds after the block of rows number `n`. -/
def upTo (f : Fin 65536 → EReal) (n : ℕ) : EReal := ∑ r ∈ Finset.range (512 * (n + 1)), ext f r

/-- After the first block: the sum of its 512 rows. -/
theorem upTo_zero (f : Fin 65536 → EReal) : upTo f 0 = ∑ p : Fin 512, ext f (512 * 0 + p.val) := by
  unfold upTo
  show ∑ r ∈ Finset.range 512, ext f r = _
  exact (Finset.sum_range _).trans (Finset.sum_congr rfl fun p _ => congrArg (ext f) (by omega))

/-- One more block: the sum so far plus the sum of the block's 512 rows. -/
theorem upTo_succ (f : Fin 65536 → EReal) (n : ℕ) :
    upTo f (n + 1) = upTo f n + ∑ p : Fin 512, ext f (512 * (n + 1) + p.val) := by
  unfold upTo
  rw [show 512 * (n + 1 + 1) = 512 * (n + 1) + 512 by omega, Finset.sum_range_add]
  exact congrArg (_ + ·) (Finset.sum_range fun x => ext f (512 * (n + 1) + x))

/-- After the last of the 128 blocks: the sum over every row. -/
theorem upTo_last (f : Fin 65536 → EReal) : upTo f 127 = ∑ r : Fin 65536, f r := by
  unfold upTo
  refine (Finset.sum_range _).trans (Finset.sum_congr rfl fun r _ => ?_)
  unfold ext
  rw [dif_pos r.isLt]

/-- Row `512·t + p` is a row of the array when `t < 128` and `p < 512`. -/
theorem row_lt (t : Fin 128) (p : Fin 512) : 512 * t.val + p.val < 65536 := by
  have := t.isLt; have := p.isLt; omega

/-- Row `p` of block `t`. -/
def rowOf (t : Fin 128) (p : Fin 512) : Fin 65536 := ⟨512 * t.val + p.val, row_lt t p⟩

theorem ext_rowOf (f : Fin 65536 → EReal) (t : Fin 128) (p : Fin 512) : ext f (512 * t.val + p.val) = f (rowOf t p) := by
  unfold ext rowOf
  rw [dif_pos (row_lt t p)]

/-! ## The two small facts about words and zero that the two programs' spellings differ by -/

/-- A one-bit word widened with zeros to 32 bits and read as a signed integer is the word read as a natural number. -/
theorem toInt_setWidth_one (b : BitVec 1) : (((b.setWidth 32).toInt : ℝ) : EReal) = ((b.toNat : ℝ) : EReal) := by
  have h : (b.setWidth 32).toInt = (b.toNat : ℤ) := by revert b; decide
  rw [h, Int.cast_natCast]

/-- `0 - x = -x` on the extended reals. -/
theorem zero_sub_eq_neg (x : EReal) : Ideal.ofBits .f32 0x00000000#32 - x = -x := by
  rw [Ideal.ofBits_zero_f32, sub_eq_add_neg, zero_add]

/-- `0 + x = x` with the zero spelt as its pattern. -/
theorem zero_add_eq (x : EReal) : Ideal.ofBits .f32 0x00000000#32 + x = x := by
  rw [Ideal.ofBits_zero_f32, zero_add]

/-- The maximum of -∞ and a row's maximum is the row's maximum: the fold starts from -∞. -/
theorem max_neginf_rowMax (x : Fin 1000 → EReal) : max (Ideal.ofBits .f32 0xFF800000#32) (rowMax x) = rowMax x :=
  max_eq_right ((Finset.le_fold_max _).2 (Or.inl le_rfl))

end Cert.Spec

end
-- ==== Proof.RefSpec.lean ====
/-
  The reference computes the specification. Its @main is read one operation at a time: the row maximum is a fold of
  `max` from -∞ over the row's 1000 entries (and the further `max` with -∞ that follows it changes nothing); each sum over
  the classes is 0 plus a sum over `Fin 1000`; a broadcast of a per-row value to the row's entries reads the row's
  value; the sums over the rows are 0 plus a sum over the 65536 rows. Stage by stage the values are the specification's
  `rowMax`, `rowExp`, `rowMass`, `rowMask`, `lossAt`, and the result is `result`.
-/
import proofs.«137683_j72103910965336_1_alg».proof.Proof.RefRead
import proofs.«137683_j72103910965336_1_alg».proof.Proof.Spec

noncomputable section

namespace Cert.ReferenceIdeal.RefSpec

open Cert.ReferenceIdeal Cert.ReferenceIdeal.Gen Cert.ReferenceIdeal.ReadP
open Idealize.ShloMosaic Idealize.ShloMosaic.ValueIdx
open Cert.Spec

variable (X Y : (⟨S65536x1000, .f32⟩ : BufTy).Contents (Elt Ideal))

/-- Entry `k` of row `r`, named through the reduction's own index map, is `(r, k)`. -/
theorem lift_eq (h : Shape.Reduces S65536x1000 [1] S65536) (r : Fin 65536) (k : Fin 1000) : h.lift (ix1 r) k = ix2 r k :=
  funext fun a => Fin.ext (by match a with | ⟨0, _⟩ => rfl | ⟨1, _⟩ => rfl)

/-- The reference's row maximum at row `r`: the fold of `max` from -∞ over the row. -/
theorem v0_apply (r : Fin 65536) : val_main_v0 (F := Ideal) X (ix1 r) = rowMax (row X r) := by
  unfold val_main_v0
  refine (Host.reduce_eq_fold_single (s := S65536x1000) (t := S65536) (a := 1) (u := S_) (α := EReal)
    (FloatOps.maximumf (F := Ideal) (φ := .f32)) X (val_main_cst (F := Ideal)) reducesTo_S65536x1000_S65536_d1
    (by decide) h_S_ (ix1 r)).trans ?_
  exact congrArg (fun g : Fin 1000 → EReal => (Finset.univ : Finset (Fin 1000)).fold max (Ideal.ofBits .f32 0xFF800000#32) g)
    (funext fun k => congrArg X (lift_eq _ r k))

/-- … and its `max` with -∞ is the same number. -/
theorem v2_apply (r : Fin 65536) : val_main_v2 (F := Ideal) X (ix1 r) = rowMax (row X r) := by
  rw [val_main_v2_apply, val_main_v1_apply, val_main_cst_0_apply, v0_apply]
  exact max_neginf_rowMax _

/-- The softmax's numerator at `(r, k)`. -/
theorem v6_apply (r : Fin 65536) (k : Fin 1000) : val_main_v6 (F := Ideal) X (ix2 r k) = rowExp (row X r) k := by
  rw [val_main_v6_apply, val_main_v5_apply, val_main_v4_apply, val_main_v3_apply,
    show idx_main_v3 (idx_main_v4 (ix2 r k)) = ix1 r from funext fun a => Fin.ext (by match a with | ⟨0, _⟩ => rfl), v2_apply]
  rfl

/-- The softmax's denominator of row `r`. -/
theorem v7_apply (r : Fin 65536) : val_main_v7 (F := Ideal) X (ix1 r) = ∑ k : Fin 1000, rowExp (row X r) k := by
  rw [val_main_v7_apply, val_main_cst_1_apply]
  refine (zero_add_eq _).trans (Finset.sum_congr rfl fun k _ => ?_)
  rw [show idx_main_v7 (ix1 r) k = ix2 r k from funext fun a => Fin.ext (by match a with | ⟨0, _⟩ => rfl | ⟨1, _⟩ => rfl)]
  exact v6_apply X r k

/-- The mass the row's candidate labels receive. -/
theorem v12_apply (r : Fin 65536) : val_main_v12 (F := Ideal) X Y (ix1 r) = rowMass (row X r) (row Y r) := by
  rw [val_main_v12_apply, val_main_cst_2_apply]
  refine (zero_add_eq _).trans (Finset.sum_congr rfl fun k _ => ?_)
  rw [show idx_main_v12 (ix1 r) k = ix2 r k from funext fun a => Fin.ext (by match a with | ⟨0, _⟩ => rfl | ⟨1, _⟩ => rfl),
    val_main_v11_apply, val_main_v10_apply, v6_apply, val_main_v9_apply, val_main_v8_apply,
    show idx_main_v8 (idx_main_v9 (ix2 r k)) = ix1 r from funext fun a => Fin.ext (by match a with | ⟨0, _⟩ => rfl), v7_apply]
  rfl

/-- Minus the logarithm of the mass plus ε. -/
theorem v16_apply (r : Fin 65536) : val_main_v16 (F := Ideal) X Y (ix1 r)
    = -(Ideal.log (rowMass (row X r) (row Y r) + Ideal.ofBits .f32 0x3727C5AC#32)) := by
  rw [val_main_v16_apply, val_main_v15_apply, val_main_v14_apply, v12_apply, val_main_v13_apply, val_main_cst_3_apply]
  rfl

/-- The row's mask. -/
theorem v20_apply (r : Fin 65536) : val_main_v20 (F := Ideal) Y (ix1 r) = rowMask (row Y r) := by
  rw [val_main_v20_apply, val_main_v19_apply, val_main_v17_apply, val_main_cst_4_apply, val_main_v18_apply, val_main_cst_5_apply]
  have e : FloatOps.ofBits (F := Ideal) .f32 0x00000000#32 + ∑ k : Fin 1000, Y (idx_main_v17 (ix1 r) k) = ∑ k : Fin 1000, row Y r k :=
    (zero_add_eq _).trans (Finset.sum_congr rfl fun k _ => congrArg Y (funext fun a => Fin.ext (by match a with | ⟨0, _⟩ => rfl | ⟨1, _⟩ => rfl)))
  rw [e]
  rfl

/-- The row's term of the total. -/
theorem v22_apply (r : Fin 65536) : val_main_v22 (F := Ideal) X Y (ix1 r) = lossAt X Y r := by
  rw [val_main_v22_apply, v16_apply, v20_apply]
  rfl

/-- The rank-1 indices are the row numbers. -/
def idxEquiv1 : Fin 65536 ≃ S65536.Idx where
  toFun := ix1
  invFun j := j 0
  left_inv _ := rfl
  right_inv j := (eq_ix1 j).symm

theorem sum_idx1 (g : S65536.Idx → EReal) : ∑ j : S65536.Idx, g j = ∑ r : Fin 65536, g (ix1 r) :=
  (Equiv.sum_comp idxEquiv1 g).symm

/-- The count: the sum of the masks over every row. -/
theorem v21_apply (i : S_.Idx) : val_main_v21 (F := Ideal) Y i = ∑ r : Fin 65536, maskAt Y r := by
  rw [val_main_v21_apply, val_main_cst_6_apply, sum_idx1]
  exact (zero_add_eq _).trans (Finset.sum_congr rfl fun r _ => v20_apply Y r)

/-- The total: the sum of the rows' terms. -/
theorem v23_apply (i : S_.Idx) : val_main_v23 (F := Ideal) X Y i = ∑ r : Fin 65536, lossAt X Y r := by
  rw [val_main_v23_apply, val_main_cst_7_apply, sum_idx1]
  exact (zero_add_eq _).trans (Finset.sum_congr rfl fun r _ => v22_apply X Y r)

/-- The reference's result is the specification's. -/
theorem result_eq : val_main_v26 (F := Ideal) X Y = fun _ => result X Y := by
  funext i
  rw [val_main_v26_apply, val_main_v24_apply, val_main_v25_apply, v21_apply, v23_apply, val_main_cst_8_apply]
  rfl

end Cert.ReferenceIdeal.RefSpec

end
-- ==== Proof.Pieces.lean ====
/-
  What the kernel's body leaves behind at a grid point, in each of its three control cases (first point, a middle
  point, last point), as values: the body's stores cover each one-element buffer with one store, so the buffer ends
  holding that store's value — a pure function of the two loaded blocks `x0` (logits) and `x1` (labels) and, away from
  the first point, of what the two accumulators held before (`xs0` the running total, `xs1` the running count):
      total  ←  `k0_pay6 x0 x1 (old total)`       (old total = the zero just stored, at the first point)
      count  ←  `k0_pay1 (k0_pay5 x1) (old count)`  (`k0_pay5 x1` the block's masks)
      output ←  `k0_pay2 (new total) (new count)`   (last point only).
  Stated for any float instance.
-/
import proofs.«137683_j72103910965336_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point: the running total is the block's sum added to the zero just stored. -/
theorem total_A (c : Dev nD) (i : grid0.Coords) (a1 : Memref sig .tc .vmem S512x1000 .f32) (h1 : a1.IsWhole)
    (a2 : Memref sig .tc .vmem S512x1000 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 x1 : Vec F S512x1000 .f32) :
    sout0_A_0 c i a1 h1 a2 h2 a3 h3 a4 h4 a5 h5 hc0 hc1 x0 x1 = k0_pay6 x0 x1 k0_pay3 := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S1x1) hz]
  rw [View.readCov_unit_zero (S := S1x1) _ hz]
  simp only [View.readAt_eq_ld, h1.read_unread, h2.read_unread, h4.read_unread, h5.read_unread,
    View.ld_unit_zero (S := S512x1000) hz, View.ld_unit_zero (S := S1x1) hz]

/-- First point: the running count is the block's count added to the zero just stored. -/
theorem count_A (c : Dev nD) (i : grid0.Coords) (a1 : Memref sig .tc .vmem S512x1000 .f32) (h1 : a1.IsWhole)
    (a2 : Memref sig .tc .vmem S512x1000 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 x1 : Vec F S512x1000 .f32) :
    sout0_A_1 c i a1 h1 a2 h2 a3 h3 a4 h4 a5 h5 hc0 hc1 x0 x1 = k0_pay1 (k0_pay5 x1) k0_pay4 := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  rw [View.canon_cons_unit_zero (S := S1x1) hz]
  rw [View.readCov_unit_zero (S := S1x1) _ hz]
  simp only [View.readAt_eq_ld, h1.read_unread, h2.read_unread, h4.read_unread, h5.read_unread,
    View.ld_unit_zero (S := S512x1000) hz, View.ld_unit_zero (S := S1x1) hz]

/-- A middle point: the block's sum added to the running total. -/
theorem total_B (c : Dev nD) (i : grid0.Coords) (a1 : Memref sig .tc .vmem S512x1000 .f32) (h1 : a1.IsWhole)
    (a2 : Memref sig .tc .vmem S512x1000 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 x1 : Vec F S512x1000 .f32) (xs0 xs1 : Vec F S1x1 .f32) :
    sout0_B_0 c i a1 h1 a2 h2 a3 h3 a4 h4 a5 h5 hc0 hc1 x0 x1 xs0 xs1 = k0_pay6 x0 x1 xs0 := by
  unfold sout0_B_0
  rw [View.read_writes_eq_canon _ _ _ (scover0_B_0 c i a1 h1 a2 h2 a3 h3 a4 h4 a5 h5 hc0 hc1 x0 x1 xs0 xs1)]
  unfold kernelRun0_B
  dsimp only
  sl_unfold_words
  rw [View.canon_unit_zero hz]
  simp only [View.readAt_eq_ld, h1.read_unread, h2.read_unread, h4.read_unread, h5.read_unread,
    View.ld_unit_zero (S := S512x1000) hz, View.ld_unit_zero (S := S1x1) hz]

/-- A middle point: the block's count added to the running count. -/
theorem count_B (c : Dev nD) (i : grid0.Coords) (a1 : Memref sig .tc .vmem S512x1000 .f32) (h1 : a1.IsWhole)
    (a2 : Memref sig .tc .vmem S512x1000 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 x1 : Vec F S512x1000 .f32) (xs0 xs1 : Vec F S1x1 .f32) :
    sout0_B_1 c i a1 h1 a2 h2 a3 h3 a4 h4 a5 h5 hc0 hc1 x0 x1 xs0 xs1 = k0_pay1 (k0_pay5 x1) xs1 := by
  unfold sout0_B_1
  rw [View.read_writes_eq_canon _ _ _ (scover0_B_1 c i a1 h1 a2 h2 a3 h3 a4 h4 a5 h5 hc0 hc1 x0 x1 xs0 xs1)]
  unfold kernelRun0_B
  dsimp only
  sl_unfold_words
  rw [View.canon_unit_zero hz]
  simp only [View.readAt_eq_ld, h1.read_unread, h2.read_unread, h4.read_unread, h5.read_unread,
    View.ld_unit_zero (S := S512x1000) hz, View.ld_unit_zero (S := S1x1) hz]

/-- Last point: the running total, as at a middle point. -/
theorem total_C (c : Dev nD) (i : grid0.Coords) (a1 : Memref sig .tc .vmem S512x1000 .f32) (h1 : a1.IsWhole)
    (a2 : Memref sig .tc .vmem S512x1000 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 : Vec F S512x1000 .f32) (xs0 xs1 : Vec F S1x1 .f32) :
    sout0_C_0 c i a1 h1 a2 h2 a3 h3 a4 h4 a5 h5 hc0 hc1 x0 x1 xs0 xs1 = k0_pay6 x0 x1 xs0 := by
  unfold sout0_C_0
  rw [View.read_writes_eq_canon _ _ _ (scover0_C_0 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S512x1000) hz, View.ld_unit_zero (S := S1x1) hz]

/-- Last point: the running count, as at a middle point. -/
theorem count_C (c : Dev nD) (i : grid0.Coords) (a1 : Memref sig .tc .vmem S512x1000 .f32) (h1 : a1.IsWhole)
    (a2 : Memref sig .tc .vmem S512x1000 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 : Vec F S512x1000 .f32) (xs0 xs1 : Vec F S1x1 .f32) :
    sout0_C_1 c i a1 h1 a2 h2 a3 h3 a4 h4 a5 h5 hc0 hc1 x0 x1 xs0 xs1 = k0_pay1 (k0_pay5 x1) xs1 := by
  unfold sout0_C_1
  rw [View.read_writes_eq_canon _ _ _ (scover0_C_1 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S512x1000) hz, View.ld_unit_zero (S := S1x1) hz]

/-- Last point: the output is the quotient (or the total) of the two accumulators as the point leaves them. -/
theorem out_C (c : Dev nD) (i : grid0.Coords) (a1 : Memref sig .tc .vmem S512x1000 .f32) (h1 : a1.IsWhole)
    (a2 : Memref sig .tc .vmem S512x1000 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 : Vec F S512x1000 .f32) (xs0 xs1 : Vec F S1x1 .f32) :
    out0_C_2 c i a1 h1 a2 h2 a3 h3 a4 h4 a5 h5 hc0 hc1 x0 x1 xs0 xs1 = k0_pay2 (k0_pay6 x0 x1 xs0) (k0_pay1 (k0_pay5 x1) xs1) := by
  unfold out0_C_2
  rw [View.read_writes_eq_canon _ _ _ (cover0_C_2 c i a1 h1 a2 h2 a3 h3 a4 h4 a5 h5 hc0 hc1 x0 x1 xs0 xs1)]
  unfold kernelRun0_C
  dsimp only
  sl_unfold_words
  rw [View.canon_unit_zero hz]
  rw [View.readCov_unit_zero (S := S1x1) _ hz, View.readCov_unit_zero (S := S1x1) _ hz]
  simp only [View.readAt_eq_ld, h1.read_unread, h2.read_unread, h4.read_unread, h5.read_unread,
    View.ld_unit_zero (S := S512x1000) hz, View.ld_unit_zero (S := S1x1) hz]

end Cert.KernelIdeal.Pieces

end
-- ==== Proof.Payload.lean ====
/-
  The body's arithmetic, read at an index over the extended reals. A block is 512 rows of 1000 entries; `brow x p` is
  row `p` of a block. The row maximum is a lane reduction read as a fold of `max` over the row; each `keepdims` sum is a
  lane reduction read as a sum over `Fin 1000`, cast from [512] to a column [512,1] (entry `(p,0)` is entry `p`) and
  broadcast along the row (entry `(p,k)` is entry `(p,0)`); the two sums over the block's rows are reductions of a
  column [512,1] to [1], read as sums over `Fin 512`, cast to [1,1]. So
      `k0_pay5 x1` at row `p`          is the row's mask,
      `k0_pay6 x0 x1 acc`             is `acc + Σ_p rowLoss (row p of x0) (row p of x1)`,
      `k0_pay1 (k0_pay5 x1) acc`      is `acc + Σ_p rowMask (row p of x1)`,
      `k0_pay2 T C`                   is `finish T C`,
  in the words of the specification. The kernel's `0 - log(…)` is the reference's `-(log(…))`, and its mask, a one-bit word
  widened to 32 bits and read signed, is the reference's one-bit word read unsigned.
-/
import proofs.«137683_j72103910965336_1_alg».proof.Proof.Gen.KernelIdeal.Skeleton
import proofs.«137683_j72103910965336_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx
open Cert.Spec

/-- Row `p` of a block. -/
def brow (x : Vec Ideal S512x1000 .f32) (p : Fin 512) : Fin 1000 → EReal := fun k => x (ix2 p k)

/-! ## The layout operations, at the block's literal shapes -/

/-- [512] cast to a column [512, 1]: entry `(p, 0)` is entry `p`. -/
theorem cast_col {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_one, Shape.rowMajor_val_two]
    show p.val = p.val * 1 + u.val
    omega)

/-- A column [512, 1] broadcast along the rows to [512, 1000]: entry `(p, k)` is entry `(p, 0)`. -/
theorem bcast_row {α : Type} (v : S512x1.Idx → α) (h : S512x1.Broadcasts S512x1000) (p : Fin 512) (k : Fin 1000) :
    broadcastTo S512x1000 v h (ix2 p k) = v (ix2 p (0 : Fin 1)) :=
  broadcastTo_apply v h _ _ (fun a => by
    match a with
    | ⟨0, _⟩ => show p.val = if (512 : Nat) = 1 then 0 else p.val; rw [if_neg (by decide)]
    | ⟨1, _⟩ => show (0 : Nat) = if (1 : Nat) = 1 then 0 else k.val; rw [if_pos rfl])

/-- [1] cast to [1, 1]: its one entry. -/
theorem cast_one {α : Type} (v : S1.Idx → α) (h : S1.ShapeCasts S1x1) (a b : Fin 1) :
    shapeCast S1x1 v h (ix2 a b) = v (ix1 (0 : Fin 1)) :=
  shapeCast_apply v h _ _ (by
    have ha : a.val = 0 := by omega
    have hb : b.val = 0 := by omega
    rw [Shape.rowMajor_val_one, Shape.rowMajor_val_two]
    show (0 : Nat) = a.val * 1 + b.val
    omega)

/-- Entry `k` of row `p`, named through the lane reduction's own index map, is `(p, k)`. -/
theorem lift_row (h : S512x1000.Reduces [1] S512) (p : Fin 512) (k : Fin 1000) : h.lift (ix1 p) k = ix2 p k :=
  funext fun a => Fin.ext (by match a with | ⟨0, _⟩ => rfl | ⟨1, _⟩ => rfl)

/-- Row `p` of a column, named through the row reduction's own index map, is `(p, 0)`. -/
theorem lift_col (h : S512x1.Reduces [0] S1) (a : Fin 1) (p : Fin 512) : h.lift (ix1 a) p = ix2 p (0 : Fin 1) :=
  funext fun d => Fin.ext (by
    match d with
    | ⟨0, _⟩ => rfl
    | ⟨1, _⟩ => show a.val = 0; omega)

/-- A sum along a block's rows: at row `p`, the sum of the row. -/
theorem rowSum_apply (v : FVec Ideal S512x1000 .f32) (h : S512x1000.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 1000, v (ix2 p k) :=
  (Ideal.multiReduction_add_single v 0x00000000#32 h hφ hacc (ix1 p)).trans
    (Finset.sum_congr rfl fun k _ => congrArg v (lift_row h p k))

/-- A maximum along a block's rows: at row `p`, the fold of `max` from -∞ over the row. -/
theorem rowMax_apply (v : FVec Ideal S512x1000 .f32) (h : S512x1000.Reduces [1] S512) (hφ : FKind.Formats .f32)
    (hacc : (0xFF800000#32 : BitVec 32) = FKind.maximumf.neutral .f32 hφ) (p : Fin 512) :
    multiReduction .maximumf [1] S512 v 0xFF800000#32 h hφ hacc (ix1 p) = rowMax (fun k => v (ix2 p k)) :=
  (Ideal.multiReduction_maximumf_single v 0xFF800000#32 h hφ hacc (ix1 p)).trans
    (congrArg (fun g : Fin 1000 → EReal => (Finset.univ : Finset (Fin 1000)).fold max (Ideal.ofBits .f32 0xFF800000#32) g)
      (funext fun k => congrArg v (lift_row h p k)))

/-- A sum down a column [512, 1]: the sum of its 512 entries. -/
theorem colSum_apply (v : FVec Ideal S512x1 .f32) (h : S512x1.Reduces [0] S1) (hφ : FKind.Formats .f32)
    (hacc : (0x00000000#32 : BitVec 32) = FKind.add.neutral .f32 hφ) (a : Fin 1) :
    multiReduction .add [0] S1 v 0x00000000#32 h hφ hacc (ix1 a) = ∑ p : Fin 512, v (ix2 p (0 : Fin 1)) :=
  (Ideal.multiReduction_add_single v 0x00000000#32 h hφ hacc (ix1 a)).trans
    (Finset.sum_congr rfl fun p _ => congrArg v (lift_col h a p))

/-! ## The stages of the running total's payload -/

variable (x0 x1 : Vec Ideal S512x1000 .f32)

/-- The rows' maxima. -/
def m5 : FVec Ideal S512 .f32 :=
  multiReduction .maximumf [1] S512 x0 0xFF800000#32 Facts₀.reduces_S512x1000_S512 (.inl rfl) rfl
/-- The softmax's numerators. -/
def e9 : FVec Ideal S512x1000 .f32 :=
  exp (subf x0 (broadcastTo S512x1000 (shapeCast S512x1 (m5 x0) Facts₀.shapeCasts_S512_S512x1) Facts₀.broadcasts_S512x1_S512x1000))
/-- The softmax's denominators. -/
def d10 : FVec Ideal S512 .f32 :=
  multiReduction .add [1] S512 (e9 x0) 0x00000000#32 Facts₀.reduces_S512x1000_S512 (.inl rfl) rfl
/-- Label times probability. -/
def w14 : FVec Ideal S512x1000 .f32 :=
  mulf x1 (divf (e9 x0) (broadcastTo S512x1000 (shapeCast S512x1 (d10 x0) Facts₀.shapeCasts_S512_S512x1) Facts₀.broadcasts_S512x1_S512x1000))
/-- The rows' candidate mass. -/
def s15 : FVec Ideal S512 .f32 :=
  multiReduction .add [1] S512 (w14 x0 x1) 0x00000000#32 Facts₀.reduces_S512x1000_S512 (.inl rfl) rfl
/-- Zero minus the logarithm of the mass plus ε, as a column. -/
def l21 : FVec Ideal S512x1 .f32 :=
  subf (broadcast S512x1 (Scalar.ofBits .f32 0x00000000#32))
    (log (addf (shapeCast S512x1 (s15 x0 x1) Facts₀.shapeCasts_S512_S512x1) (broadcast S512x1 (Scalar.ofBits .f32 0x3727C5AC#32))))
/-- The rows' terms of the total, as a column. -/
def t29 : FVec Ideal S512x1 .f32 := mulf (l21 x0 x1) (k0_pay5 x1)

/-- The total's payload over the named stages. -/
theorem pay6_eq (xs : Vec Ideal S1x1 .f32) : k0_pay6 x0 x1 xs
    = shapeCast S1x1 (addf xs (shapeCast S1x1 (multiReduction .add [0] S1 (t29 x0 x1) 0x00000000#32 Facts₀.reduces_S512x1_S1 (.inl rfl) rfl)
        Facts₀.shapeCasts_S1_S1x1)) Facts₀.shapeCasts_S1x1_S1x1 := rfl

theorem m5_apply (p : Fin 512) : m5 x0 (ix1 p) = rowMax (brow x0 p) := by
  unfold m5
  exact rowMax_apply x0 _ _ _ p

theorem e9_apply (p : Fin 512) (k : Fin 1000) : e9 x0 (ix2 p k) = rowExp (brow x0 p) k := by
  unfold e9
  show Ideal.exp (x0 (ix2 p k)
    - broadcastTo S512x1000 (shapeCast S512x1 (m5 x0) Facts₀.shapeCasts_S512_S512x1) Facts₀.broadcasts_S512x1_S512x1000 (ix2 p k)) = _
  rw [bcast_row, cast_col, m5_apply]
  rfl

theorem d10_apply (p : Fin 512) : d10 x0 (ix1 p) = ∑ k : Fin 1000, rowExp (brow x0 p) k := by
  unfold d10
  exact (rowSum_apply (e9 x0) _ _ _ p).trans (Finset.sum_congr rfl fun k _ => e9_apply x0 p k)

theorem w14_apply (p : Fin 512) (k : Fin 1000) :
    w14 x0 x1 (ix2 p k) = brow x1 p k * Ideal.div (rowExp (brow x0 p) k) (∑ k' : Fin 1000, rowExp (brow x0 p) k') := by
  unfold w14
  show x1 (ix2 p k) * Ideal.div (e9 x0 (ix2 p k))
    (broadcastTo S512x1000 (shapeCast S512x1 (d10 x0) Facts₀.shapeCasts_S512_S512x1) Facts₀.broadcasts_S512x1_S512x1000 (ix2 p k)) = _
  rw [bcast_row, cast_col, d10_apply, e9_apply]
  rfl

theorem s15_apply (p : Fin 512) : s15 x0 x1 (ix1 p) = rowMass (brow x0 p) (brow x1 p) := by
  unfold s15
  exact (rowSum_apply (w14 x0 x1) _ _ _ p).trans (Finset.sum_congr rfl fun k _ => w14_apply x0 x1 p k)

theorem l21_apply (p : Fin 512) (u : Fin 1) :
    l21 x0 x1 (ix2 p u) = -(Ideal.log (rowMass (brow x0 p) (brow x1 p) + Ideal.ofBits .f32 0x3727C5AC#32)) := by
  unfold l21
  show Ideal.ofBits .f32 0x00000000#32
    - Ideal.log (shapeCast S512x1 (s15 x0 x1) Facts₀.shapeCasts_S512_S512x1 (ix2 p u) + Ideal.ofBits .f32 0x3727C5AC#32) = _
  rw [cast_col, s15_apply]
  exact zero_sub_eq_neg _

/-- The block's masks: at row `p`, the specification's mask of the row. -/
theorem pay5_apply (p : Fin 512) (u : Fin 1) : k0_pay5 (F := Ideal) x1 (ix2 p u) = rowMask (brow x1 p) := by
  have e : shapeCast S512x1 (multiReduction .add [1] S512 x1 0x00000000#32 Facts₀.reduces_S512x1000_S512 (.inl rfl) rfl : FVec Ideal S512 .f32)
      Facts₀.shapeCasts_S512_S512x1 (ix2 p u) = ∑ k : Fin 1000, x1 (ix2 p k) :=
    (cast_col _ _ p u).trans (rowSum_apply x1 _ _ _ p)
  unfold k0_pay5
  exact (congrArg (fun s : EReal => ((((Ideal.cmp .ole s (Ideal.ofBits .f32 0x4479C000#32)).setWidth 32).toInt : ℝ) : EReal)) e).trans
    (toInt_setWidth_one _)

theorem t29_apply (p : Fin 512) (u : Fin 1) : t29 x0 x1 (ix2 p u) = rowLoss (brow x0 p) (brow x1 p) := by
  unfold t29
  show l21 x0 x1 (ix2 p u) * k0_pay5 x1 (ix2 p u) = _
  rw [l21_apply, pay5_apply]
  rfl

/-! ## The four payloads -/

/-- The running total's update: the old total plus the block's rows' terms. -/
theorem pay6_apply (xs : Vec Ideal S1x1 .f32) (a b : Fin 1) :
    k0_pay6 x0 x1 xs (ix2 a b) = xs (ix2 a b) + ∑ p : Fin 512, rowLoss (brow x0 p) (brow x1 p) := by
  rw [pay6_eq, shapeCast_self]
  show xs (ix2 a b) + shapeCast S1x1 (multiReduction .add [0] S1 (t29 x0 x1) 0x00000000#32 Facts₀.reduces_S512x1_S1 (.inl rfl) rfl)
    Facts₀.shapeCasts_S1_S1x1 (ix2 a b) = _
  exact congrArg (xs (ix2 a b) + ·) ((cast_one _ _ a b).trans
    ((colSum_apply (t29 x0 x1) _ _ _ 0).trans (Finset.sum_congr rfl fun p _ => t29_apply x0 x1 p 0)))

/-- The running count's update: the old count plus the block's masks. -/
theorem pay1_apply (xs : Vec Ideal S1x1 .f32) (a b : Fin 1) :
    k0_pay1 (k0_pay5 x1) xs (ix2 a b) = xs (ix2 a b) + ∑ p : Fin 512, rowMask (brow x1 p) := by
  unfold k0_pay1
  show shapeCast S1x1 (addf xs (shapeCast S1x1 (multiReduction .add [0] S1 (k0_pay5 x1) 0x00000000#32 Facts₀.reduces_S512x1_S1 (.inl rfl) rfl)
    Facts₀.shapeCasts_S1_S1x1)) Facts₀.shapeCasts_S1x1_S1x1 (ix2 a b) = _
  rw [shapeCast_self]
  show xs (ix2 a b) + shapeCast S1x1 (multiReduction .add [0] S1 (k0_pay5 x1) 0x00000000#32 Facts₀.reduces_S512x1_S1 (.inl rfl) rfl)
    Facts₀.shapeCasts_S1_S1x1 (ix2 a b) = _
  exact congrArg (xs (ix2 a b) + ·) ((cast_one _ _ a b).trans
    ((colSum_apply (k0_pay5 x1) _ _ _ 0).trans (Finset.sum_congr rfl fun p _ => pay5_apply x1 p 0)))

/-- The last point's output: the quotient of the two accumulators where the count is positive, else the total. -/
theorem pay2_apply (T C : Vec Ideal S1x1 .f32) (y : S1x1.Idx) : k0_pay2 T C y = finish (T y) (C y) := rfl

/-- The zero the first point stores into the running total … -/
theorem pay3_apply (y : S1x1.Idx) : k0_pay3 (F := Ideal) y = Ideal.ofBits .f32 0x00000000#32 := by
  unfold k0_pay3
  show shapeCast S1x1 (broadcast S1x1 (Scalar.ofBits (F := Ideal) .f32 0x00000000#32)) Facts₀.shapeCasts_S1x1_S1x1 y = _
  rw [shapeCast_self]
  rfl

/-- … and into the running count. -/
theorem pay4_apply (y : S1x1.Idx) : k0_pay4 (F := Ideal) y = Ideal.ofBits .f32 0x00000000#32 := by
  unfold k0_pay4
  show shapeCast S1x1 (broadcast S1x1 (Scalar.ofBits (F := Ideal) .f32 0x00000000#32)) Facts₀.shapeCasts_S1x1_S1x1 y = _
  rw [shapeCast_self]
  rfl

end Cert.KernelIdeal.Payload

end
-- ==== Proof.KerValue.lean ====
/-
  The kernel's result. The grid has 128 points; point `t` loads rows `512·t … 512·t + 511` of the two arrays. The two
  one-element scratch buffers carry, from point to point, the running total and the running count: after point `n` they
  hold the sums of the rows' terms and of the rows' masks over the first `512·(n+1)` rows (`acc_eq`, by induction on the
  point: the first point adds its block to the zero it has just stored, every later point adds its block to what the
  point before left). The output block is written once, at the last point, from the two accumulators as that point
  leaves them — the sums over all 65536 rows — and it is the whole [1,1] result array; the host's reshape to a scalar
  reads its one entry.
-/
import proofs.«137683_j72103910965336_1_alg».proof.Proof.Gen.KernelIdeal.Frame
import proofs.«137683_j72103910965336_1_alg».proof.Proof.Pieces
import proofs.«137683_j72103910965336_1_alg».proof.Proof.Payload
import proofs.«137683_j72103910965336_1_alg».proof.Proof.Spec
import Idealize.ShloMosaic.Lib.Pipeline.Value
import Idealize.ShloMosaic.Lib.StableHlo.Run
import Idealize.ShloMosaic.Lib.Tactic

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat)
open Cert.Spec Cert.KernelIdeal.Payload

variable (m : (ℓ : Loc nD τ sig) → Buf (Elt Ideal) ℓ) (ρ : Dev nD → PrngReg)

/-! ## A point's blocks are rows of the arrays -/

/-- The printed index maps, decided over the grid: the two inputs' block at point `t` is block `(t, 0)`, the output's
    is always block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- A grid point as a block number. -/
def tile (t : Fin cfg0.N) : Fin 128 := ⟨t.val, lt_of_lt_of_eq t.isLt N_0⟩

/-- Row `p` of the logits' block at point `t` is row `512·t + p` of the logits. -/
theorem brow_iblk0 (c : Dev nD) (t : Fin cfg0.N) (p : Fin 512) :
    brow (iblk m c 0 t) p = row (V m c main_arg0) (rowOf (tile t) p) := by
  funext k
  show iblk m c 0 t (ix2 p k) = V m c main_arg0 (ix2 (rowOf (tile t) p) k)
  unfold iblk
  rw [View.read_apply]
  show V m c main_arg0 (((cfg0.win 0).blk t).view.emb (ix2 p k)) = _
  obtain ⟨e0, e1, -⟩ := idx_facts t
  refine congrArg (V m c main_arg0) (funext fun a => Fin.ext ?_)
  match a with
  | ⟨0, _⟩ => show win0_0.index t (0 : Fin 2) * 512 + 1 * p.val = 512 * t.val + p.val; omega
  | ⟨1, _⟩ => show win0_0.index t (1 : Fin 2) * 1000 + 1 * k.val = k.val; omega

/-- Row `p` of the labels' block at point `t` is row `512·t + p` of the labels. -/
theorem brow_iblk1 (c : Dev nD) (t : Fin cfg0.N) (p : Fin 512) :
    brow (iblk m c 1 t) p = row (V m c main_arg1) (rowOf (tile t) p) := by
  funext k
  show iblk m c 1 t (ix2 p k) = V m c main_arg1 (ix2 (rowOf (tile t) p) k)
  unfold iblk
  rw [View.read_apply]
  show V m c main_arg1 (((cfg0.win 1).blk t).view.emb (ix2 p k)) = _
  obtain ⟨-, -, e2, e3, -⟩ := idx_facts t
  refine congrArg (V m c main_arg1) (funext fun a => Fin.ext ?_)
  match a with
  | ⟨0, _⟩ => show win0_1.index t (0 : Fin 2) * 512 + 1 * p.val = 512 * t.val + p.val; omega
  | ⟨1, _⟩ => show win0_1.index t (1 : Fin 2) * 1000 + 1 * k.val = k.val; omega

/-- The rows' terms of the total and of the count, over the arrays as the region finds them. -/
abbrev lossF (c : Dev nD) : Fin 65536 → EReal := lossAt (V m c main_arg0) (V m c main_arg1)
abbrev maskF (c : Dev nD) : Fin 65536 → EReal := maskAt (V m c main_arg1)

/-- The terms a point's block adds to the total are those of rows `512·t … 512·t + 511`. -/
theorem blockLoss (c : Dev nD) (t : Fin cfg0.N) :
    ∑ p : Fin 512, rowLoss (brow (iblk m c 0 t) p) (brow (iblk m c 1 t) p)
      = ∑ p : Fin 512, ext (lossF m c) (512 * t.val + p.val) :=
  Finset.sum_congr rfl fun p _ => by
    rw [brow_iblk0 m c t p, brow_iblk1 m c t p]
    exact (ext_rowOf (lossF m c) (tile t) p).symm

/-- … and to the count. -/
theorem blockMask (c : Dev nD) (t : Fin cfg0.N) :
    ∑ p : Fin 512, rowMask (brow (iblk m c 1 t) p) = ∑ p : Fin 512, ext (maskF m c) (512 * t.val + p.val) :=
  Finset.sum_congr rfl fun p _ => by
    rw [brow_iblk1 m c t p]
    exact (ext_rowOf (maskF m c) (tile t) p).symm

/-- A point's update of the running total, over the rows of the arrays. -/
theorem stepTotal (c : Dev nD) (t : Fin cfg0.N) (xs : Vec Ideal S1x1 .f32) (a b : Fin 1) :
    k0_pay6 (iblk m c 0 t) (iblk m c 1 t) xs (ix2 a b)
      = xs (ix2 a b) + ∑ p : Fin 512, ext (lossF m c) (512 * t.val + p.val) :=
  (pay6_apply (iblk m c 0 t) (iblk m c 1 t) xs a b).trans (congrArg (xs (ix2 a b) + ·) (blockLoss m c t))

/-- A point's update of the running count. -/
theorem stepCount (c : Dev nD) (t : Fin cfg0.N) (xs : Vec Ideal S1x1 .f32) (a b : Fin 1) :
    k0_pay1 (k0_pay5 (iblk m c 1 t)) xs (ix2 a b)
      = xs (ix2 a b) + ∑ p : Fin 512, ext (maskF m c) (512 * t.val + p.val) :=
  (pay1_apply (iblk m c 1 t) xs a b).trans (congrArg (xs (ix2 a b) + ·) (blockMask m c t))

/-! ## What the two accumulators hold after each point -/

/-- The first point leaves each accumulator at its block's sum added to the zero it stored. -/
theorem first_point (c : Dev nD) (t : Fin cfg0.N) (h0 : t.val % 128 = 0) (h1 : ¬t.val % 128 = 127) :
    (outsAt0 m c t.val t.isLt).2.1 = k0_pay6 (iblk m c 0 t) (iblk m c 1 t) (k0_pay3 (F := Ideal))
    ∧ (outsAt0 m c t.val t.isLt).2.2 = k0_pay1 (k0_pay5 (iblk m c 1 t)) (k0_pay4 (F := Ideal)) := by
  rw [outsAt0_A m c t h0 h1]
  dsimp only
  exact ⟨Pieces.total_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    Pieces.count_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

/-- Every later point leaves each accumulator at its block's sum added to what the point before left. -/
theorem later_point (c : Dev nD) (t : Fin cfg0.N) (h0 : ¬t.val % 128 = 0) :
    (outsAt0 m c t.val t.isLt).2.1 = k0_pay6 (iblk m c 0 t) (iblk m c 1 t) (outsAt0 m c (t.val - 1) (Nat.lt_of_le_of_lt (Nat.sub_le _ _) t.isLt)).2.1
    ∧ (outsAt0 m c t.val t.isLt).2.2 = k0_pay1 (k0_pay5 (iblk m c 1 t)) (outsAt0 m c (t.val - 1) (Nat.lt_of_le_of_lt (Nat.sub_le _ _) t.isLt)).2.2 := by
  by_cases h1 : t.val % 128 = 127
  · rw [outsAt0_C m c t h0 h1]
    dsimp only
    exact ⟨Pieces.total_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
      Pieces.count_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨Pieces.total_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
      Pieces.count_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2⟩

/-- THE ACCUMULATORS: after point `n` the running total is the sum of the rows' terms, and the running count the sum of
    the rows' masks, over the first `512·(n+1)` rows. -/
theorem acc_eq (c : Dev nD) : ∀ (n : ℕ) (h : n < cfg0.N) (a b : Fin 1),
    (outsAt0 m c n h).2.1 (ix2 a b) = upTo (lossF m c) n ∧ (outsAt0 m c n h).2.2 (ix2 a b) = upTo (maskF m c) n
  | 0, h, a, b => by
    obtain ⟨e0, e1⟩ := first_point m c ⟨0, h⟩ rfl (by show ¬(0 : ℕ) % 128 = 127; decide)
    constructor
    · refine (congrFun e0 (ix2 a b)).trans ((stepTotal m c ⟨0, h⟩ (k0_pay3 (F := Ideal)) a b).trans ?_)
      rw [pay3_apply, zero_add_eq]
      exact (upTo_zero _).symm
    · refine (congrFun e1 (ix2 a b)).trans ((stepCount m c ⟨0, h⟩ (k0_pay4 (F := Ideal)) a b).trans ?_)
      rw [pay4_apply, zero_add_eq]
      exact (upTo_zero _).symm
  | n + 1, h, a, b => by
    have hN : cfg0.N = 128 := N_0
    have h0 : ¬(⟨n + 1, h⟩ : Fin cfg0.N).val % 128 = 0 := by dsimp only; omega
    obtain ⟨e0, e1⟩ := later_point m c ⟨n + 1, h⟩ h0
    obtain ⟨i0, i1⟩ := acc_eq c n (Nat.lt_of_succ_lt h) a b
    constructor
    · refine (congrFun e0 (ix2 a b)).trans ((stepTotal m c ⟨n + 1, h⟩ _ a b).trans ?_)
      rw [upTo_succ]
      exact congrArg (· + _) i0
    · refine (congrFun e1 (ix2 a b)).trans ((stepCount m c ⟨n + 1, h⟩ _ a b).trans ?_)
      rw [upTo_succ]
      exact congrArg (· + _) i1

/-! ## The one write-back -/

/-- The last point's output is `finish` of the two accumulators as that point leaves them. -/
theorem last_out (c : Dev nD) (t : Fin cfg0.N) (h0 : ¬t.val % 128 = 0) (h1 : t.val % 128 = 127) :
    (outsAt0 m c t.val t.isLt).1 = k0_pay2 (outsAt0 m c t.val t.isLt).2.1 (outsAt0 m c t.val t.isLt).2.2 := by
  obtain ⟨e0, e1⟩ := later_point m c t h0
  rw [e0, e1, outsAt0_C m c t h0 h1]
  dsimp only
  exact Pieces.out_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- The kernel's [1,1] result array: the specification's result, over the arrays as the region finds them. -/
def res (c : Dev nD) : Buf (Elt Ideal) ((c : Thread nD τ).loc main_v0) :=
  fun _ => result (V m c main_arg0) (V m c main_arg1)

/-- The last point's output block holds the result: its two accumulators are the sums over all 65536 rows. -/
theorem last_val (c : Dev nD) (t : Fin cfg0.N) (h0 : ¬t.val % 128 = 0) (h1 : t.val % 128 = 127) :
    (outsAt0 m c t.val t.isLt).1 = fun _ => result (V m c main_arg0) (V m c main_arg1) := by
  have hN : cfg0.N = 128 := N_0
  have ht : t.val = 127 := by have := t.isLt; omega
  rw [last_out m c t h0 h1]
  funext y
  obtain ⟨a, b, rfl⟩ : ∃ a b : Fin 1, y = ix2 a b := ⟨y 0, y 1, eq_ix2 y⟩
  obtain ⟨i0, i1⟩ := acc_eq m c t.val t.isLt a b
  rw [pay2_apply, i0, i1, ht, upTo_last, upTo_last]
  rfl

/-- What the last point writes back is the result. -/
theorem flushed_eq (c : Dev nD) (t : Fin cfg0.N) (hf : (cfg0.win 2).flush t = true) :
    (dats m 0 c).flushed 2 t = ((cfg0.win 2).blk t).view.read (Elt Ideal) (res m c) := by
  have h1 : t.val % 128 = 127 := (flush0_2 t).mp hf
  have h0 : ¬t.val % 128 = 0 := by omega
  show (cfg0.win 2).cut (grid0.coords t) ((dats m 0 c).after 2 t) = _
  rw [after0_2, last_val m c t h0 h1]
  obtain ⟨-, -, -, -, e4, e5⟩ := idx_facts t
  have hz' : (fun a => win0_2.index t a * main_v0.ty.shape.size a) = fun _ => 0 := funext fun a => by
    match a with
    | ⟨0, _⟩ => show win0_2.index t (0 : Fin 2) * 1 = 0; omega
    | ⟨1, _⟩ => show win0_2.index t (1 : Fin 2) * 1 = 0; omega
  exact (Memref.read_access_unit_zero (Elt Ideal) main_v0 hz' (fun a => by rw [congrFun hz' a]; simp) (res m c)).symm

/-- An index of the [1,1] array is in a point's output block iff each coordinate is in the block's range. -/
theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The last point. -/
def tLast : Fin cfg0.N := ⟨127, by rw [show cfg0.N = 128 from N_0]; decide⟩

/-- So the result array ends holding the result: the last point's block is the whole array. -/
theorem final (c : Dev nD) : (dats m 0 c).arrAt 2 cfg0.N = res m c :=
  (dats m 0 c).arrAt_eq_of_cover 2 (res m c) (flushed_eq m c) fun i =>
    ⟨tLast, (flush0_2 tLast).mpr rfl, by
      rw [mem_blk]
      obtain ⟨-, -, -, -, e4, e5⟩ := idx_facts tLast
      have b0 : (i 0).val < 1 := (i 0).isLt
      have b1 : (i 1).val < 1 := (i 1).isLt
      intro a
      match a with
      | ⟨0, _⟩ => show win0_2.index tLast (0 : Fin 2) * 1 ≤ (i 0).val ∧ (i 0).val < win0_2.index tLast (0 : Fin 2) * 1 + 1; omega
      | ⟨1, _⟩ => show win0_2.index tLast (1 : Fin 2) * 1 ≤ (i 1).val ∧ (i 1).val < win0_2.index tLast (1 : Fin 2) * 1 + 1; omega⟩

/-! ## The run, read -/

/-- The scalar the program returns: the specification's result over the arguments' launch contents. -/
def out (c : Dev nD) : Buf (Elt Ideal) ((c : Thread nD τ).loc main_v1) :=
  fun _ => result (m ((c : Thread nD τ).loc main_arg0)) (m ((c : Thread nD τ).loc main_arg1))

/-- The host's reshape of the [1,1] array to a scalar reads its one entry. -/
theorem tail_eq (c : Dev nD) : Pipeline.afterTail₀ cfgs (dats m) 0 (V0 m) [hostOps1] c main_v1 = out m c := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0) = res m c :=
    (Pipeline.withArrays_arr spec0 launch0.win.arr_inj c _ _ 2).trans (final m c)
  funext i
  show shapeCast S_ (Pipeline.withArrays (cfgs 0).spec c (V0 m c) (fun w => (dats m 0 c).arrAt w (cfgs 0).N) (Proc.devRef .tc main_v0))
    Facts₀.shapeCasts_S1x1_S_ i = _
  rw [hw]
  rfl

/-- Every weakly fair execution of the kernel's program terminates with the returned scalar at the specification's
    result of the arguments, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KerValue

end
-- ==== Proof.lean ====
/-
  The masked cross-entropy of a softmax over logits and labels of shape [65536, 1000], reduced to one number:
  the kernel against its jnp reference, over the extended reals.

  Both programs compute, per row, the softmax of the logits (through the row's maximum, folded from -∞), the mass it
  gives the row's candidate labels, minus the logarithm of that mass plus ε, and a mask that drops the rows whose
  every label is a candidate; then the sum of the masked terms and the sum of the masks over all rows, and their
  quotient when the count is positive (the sum itself otherwise). The reference sums the 65536 rows at once. The
  kernel walks 128 blocks of 512 rows, keeping the two sums in one-element accumulators, and divides at the last block.
  The two results are one function of the arguments (Proof/Spec.lean's `result`): regrouping a sum of extended reals
  into blocks needs only that addition is associative and commutative, so the inputs' finiteness is never used; the
  remaining differences are spellings — `0 - x` for `-x`, a one-bit mask widened and read signed for the same mask read
  unsigned, a `max` with -∞ on top of a fold that starts from -∞, sums that start from a zero.

  The three programs run (terminate, fault-free, arguments unchanged): the two kernel programs by their frames, the
  reference by its run. The idealized kernel is the kernel's own text read over the extended reals: nothing to preserve.
-/
import proofs.«137683_j72103910965336_1_alg».proof.Defs
import proofs.«137683_j72103910965336_1_alg».proof.Proof.Gen.Kernel
import proofs.«137683_j72103910965336_1_alg».proof.Proof.Gen.Kernel.Skeleton
import proofs.«137683_j72103910965336_1_alg».proof.Proof.Gen.Kernel.Launch
import proofs.«137683_j72103910965336_1_alg».proof.Proof.Gen.Kernel.Points
import proofs.«137683_j72103910965336_1_alg».proof.Proof.Gen.Kernel.Frame
import proofs.«137683_j72103910965336_1_alg».proof.Proof.Gen.KernelIdeal
import proofs.«137683_j72103910965336_1_alg».proof.Proof.Gen.KernelIdeal.Skeleton
import proofs.«137683_j72103910965336_1_alg».proof.Proof.Gen.KernelIdeal.Launch
import proofs.«137683_j72103910965336_1_alg».proof.Proof.Gen.KernelIdeal.Points
import proofs.«137683_j72103910965336_1_alg».proof.Proof.Gen.KernelIdeal.Frame
import proofs.«137683_j72103910965336_1_alg».proof.Proof.Gen.ReferenceIdeal
import proofs.«137683_j72103910965336_1_alg».proof.Proof.Gen.Pre_finite_inputs
import proofs.«137683_j72103910965336_1_alg».proof.Proof.RefRun
import proofs.«137683_j72103910965336_1_alg».proof.Proof.RefRead
import proofs.«137683_j72103910965336_1_alg».proof.Proof.RefSpec
import proofs.«137683_j72103910965336_1_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Over the extended reals the kernel's returned scalar and the reference's are the specification's `result` of
    arguments that agree. -/
theorem algebraic : Cert.algebraic_KernelIdeal_ReferenceIdeal := by
  intro m ρ m' ρ' _ hagree
  refine ⟨fun c => Cert.KernelIdeal.KerValue.out m c, Cert.KernelIdeal.KerValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v26_eq, Cert.ReferenceIdeal.RefSpec.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
